-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_cst_2 : FVec F S_ .f32 := constant S_ .f32 0x00000000#32
  let main_v9 : FVec F S16777216 .f32 := broadcastInDim S16777216 ![] bcast_S_S16777216 main_cst_2
  let main_v10 : IVec S16777216 1 := cmpf .oeq main_arg1 main_v9
  let main_cst_3 : FVec F S_ .f32 := constant S_ .f32 0x3F800000#32
  let main_v11 : FVec F S16777216 .f32 := broadcastInDim S16777216 ![] bcast_S_S16777216 main_cst_3
  let main_v12 : IVec S16777216 1 := cmpf .oeq main_arg1 main_v11
  let main_v13 : IVec S16777216 1 := ori main_v10 main_v12
  let main_c_4 : IVec S_ 1 := constantI S_ 1 1#1
  let main_v14 : IVec S_ 1 := (fun x v => Host.reduce IntOp.andi x v reducesTo_S16777216_S_d0 h_S_) main_v13 main_c_4
  let main_v15 : IVec S_ 1 := andi main_v8 main_v14
  main_v15
-- ==== Kernel.lean ====
abbrev S16777216 : Shape := ⟨1, ![16777216]⟩
abbrev S131072x128 : Shape := ⟨2, ![131072, 128]⟩
abbrev S16x1x1 : Shape := ⟨3, ![16, 1, 1]⟩
abbrev S8192x128 : Shape := ⟨2, ![8192, 128]⟩
abbrev S1x1x1 : Shape := ⟨3, ![1, 1, 1]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S16x1x1, .f32⟩
  | .hbm, ⟨5, _⟩ => ⟨S_, .f32⟩
  | .hbm, ⟨6, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x1, .f32⟩
  | .local _ .vmem, ⟨5, _⟩ => ⟨S1x1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .i1⟩
  | .hbm, ⟨25, _⟩ => ⟨S_, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S_, .f32⟩
  | .hbm, ⟨40, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Elem.lean ====
/-
  One element of the focal loss, on the extended reals.

  With `pc = min hi (max lo p)` the clipped probability, both programs compute, per element,
  `w(t) · (1 − pt)² · bce`, where `bce = −(t · log pc + (1 − t) · log(1 − pc))` and `w(t)` is one of two
  weights selected by `t = 1`. They differ in `pt`: the kernel SELECTS `pc` (at `t = 1`) or `1 − pc`
  (otherwise), the reference computes `exp(−bce)`; and in the square: a product against a power with
  exponent `2`. The clip keeps `pc` a real number strictly between 0 and 1, so both logarithms are real;
  for a label `t ∈ {0, 1}` one of the two products in `bce` vanishes and `exp(−bce)` is `exp(log pc) = pc`
  or `exp(log(1 − pc)) = 1 − pc`: the selected value. For any other label the two differ.
-/
import Idealize.ShloMosaic.PureOps.Ideal
import Idealize.ShloMosaic.PureOps.Ideal.Laws

noncomputable section

namespace Cert.Focal

open Idealize.ShloMosaic

/-- The lower clip bound, the float nearest `1e-7`. -/
abbrev lo : EReal := Ideal.ofBits .f32 0x33D6BF95#32
/-- The upper clip bound, the float nearest `1 − 1e-7`. -/
abbrev hi : EReal := Ideal.ofBits .f32 0x3F7FFFFE#32
abbrev one : EReal := Ideal.ofBits .f32 0x3F800000#32
abbrev two : EReal := Ideal.ofBits .f32 0x40000000#32
abbrev zero : EReal := Ideal.ofBits .f32 0x00000000#32
/-- The weight of a positive label (the float nearest 0.8) and of any other (nearest 0.2). -/
abbrev wPos : EReal := Ideal.ofBits .f32 0x3F4CCCCD#32
abbrev wNeg : EReal := Ideal.ofBits .f32 0x3E4CCCCD#32

theorem lo_eq : lo = ((14073749 / 2 ^ 47 : ℝ) : EReal) := by
  simp [lo, Ideal.ofBits, Ideal.ieee, -EReal.coe_mul]
  norm_num
theorem hi_eq : hi = ((16777214 / 2 ^ 24 : ℝ) : EReal) := by
  simp [hi, Ideal.ofBits, Ideal.ieee, -EReal.coe_mul]
  norm_num
theorem one_eq : one = 1 := by
  simp [one, Ideal.ofBits, Ideal.ieee, -EReal.coe_mul]
  norm_num
theorem two_eq : two = ((2 : ℝ) : EReal) := by
  simp [two, Ideal.ofBits, Ideal.ieee, -EReal.coe_mul]
  norm_num
theorem zero_eq : zero = 0 := Ideal.ofBits_zero_f32

/-- The clipped probability. -/
def clip (p : EReal) : EReal := min hi (max lo p)

/-- The weight selected by the label. -/
def weight (t : EReal) : EReal := Scalar.select (Ideal.cmp .oeq t one) wPos wNeg

/-- The binary cross entropy as the kernel spells it (`0 − x` for a negation). -/
def bceK (pc t : EReal) : EReal := zero - (t * Ideal.log pc + (one - t) * Ideal.log1p (zero - pc))

/-- The binary cross entropy as the reference spells it. -/
def bceR (pc t : EReal) : EReal := -(t * Ideal.log pc + (one - t) * Ideal.log1p (-pc))

/-- The kernel's `1 − pt`, with `pt` selected by the label. -/
def qK (pc t : EReal) : EReal := one - Scalar.select (Ideal.cmp .oeq t one) pc (one - pc)

/-- The kernel's element. -/
def focalK (p t : EReal) : EReal := weight t * (qK (clip p) t * qK (clip p) t) * bceK (clip p) t

/-- The reference's element. -/
def focalR (p t : EReal) : EReal :=
  weight t * Ideal.pow (one - Ideal.exp (-bceR (clip p) t)) two * bceR (clip p) t

theorem bceK_eq_bceR (pc t : EReal) : bceK pc t = bceR pc t := by
  unfold bceK bceR
  rw [zero_eq, sub_eq_add_neg 0 pc, zero_add, sub_eq_add_neg 0, zero_add]

/-- The clipped probability is a real number strictly between 0 and 1, whatever `p` is. -/
theorem clip_real (p : EReal) : ∃ r : ℝ, 0 < r ∧ r < 1 ∧ clip p = (r : EReal) := by
  have hlh : lo ≤ hi := by rw [lo_eq, hi_eq]; exact EReal.coe_le_coe_iff.mpr (by norm_num)
  have h1 : lo ≤ clip p := le_min hlh (le_max_left _ _)
  have h2 : clip p ≤ hi := min_le_left _ _
  have hne_top : clip p ≠ ⊤ := ne_top_of_le_ne_top (by rw [hi_eq]; exact EReal.coe_ne_top _) h2
  have hne_bot : clip p ≠ ⊥ := ne_bot_of_le_ne_bot (by rw [lo_eq]; exact EReal.coe_ne_bot _) h1
  obtain ⟨r, hr⟩ : ∃ r : ℝ, (r : EReal) = clip p := ⟨_, EReal.coe_toReal hne_top hne_bot⟩
  rw [← hr, lo_eq] at h1
  rw [← hr, hi_eq] at h2
  have h1' := EReal.coe_le_coe_iff.mp h1
  have h2' := EReal.coe_le_coe_iff.mp h2
  refine ⟨r, ?_, ?_, hr.symm⟩
  · have : (0 : ℝ) < 14073749 / 2 ^ 47 := by norm_num
    linarith
  · have : (16777214 / 2 ^ 24 : ℝ) < 1 := by norm_num
    linarith

theorem sel_eq {α : Type} (x y : EReal) (a b : α) (h : x = y) : Scalar.select (Ideal.cmp .oeq x y) a b = a := by
  simp [Scalar.select, Ideal.cmp, h]

theorem sel_ne {α : Type} (x y : EReal) (a b : α) (h : x ≠ y) : Scalar.select (Ideal.cmp .oeq x y) a b = b := by
  simp [Scalar.select, Ideal.cmp, h]

theorem log_real {r : ℝ} (h : 0 < r) : Ideal.log (r : EReal) = (Real.log r : EReal) := by
  rw [Ideal.log_coe, if_neg (not_le.mpr h)]

theorem log1p_neg_real {r : ℝ} (h : r < 1) : Ideal.log1p (-(r : EReal)) = (Real.log (1 - r) : EReal) := by
  unfold Ideal.log1p
  rw [show (1 : EReal) + -(r : EReal) = ((1 - r : ℝ) : EReal) by
    rw [sub_eq_add_neg, EReal.coe_add, EReal.coe_neg, EReal.coe_one]]
  exact log_real (by linarith)

theorem one_sub_real (r : ℝ) : (1 : EReal) - (r : EReal) = ((1 - r : ℝ) : EReal) := by
  rw [EReal.coe_sub, EReal.coe_one]

theorem pow_two_real (r : ℝ) : Ideal.pow (r : EReal) ((2 : ℝ) : EReal) = (r : EReal) * (r : EReal) := by
  rw [Ideal.pow_coe_coe, Real.rpow_eq_pow, Real.rpow_two, sq, EReal.coe_mul]

/-- For a binary label the reference's element is the kernel's. -/
theorem focalR_eq_focalK (p t : EReal) (ht : t = 0 ∨ t = 1) : focalR p t = focalK p t := by
  obtain ⟨r, hr0, hr1, hr⟩ := clip_real p
  unfold focalR focalK qK
  rw [bceK_eq_bceR, hr]
  unfold bceR
  rw [log_real hr0, log1p_neg_real hr1, one_eq, two_eq]
  rcases ht with rfl | rfl
  · -- label 0: bce = −log(1 − pc), pt = 1 − pc
    rw [sel_ne (0 : EReal) 1 _ _ (by norm_num), zero_mul, zero_add, sub_zero, one_mul, neg_neg,
      Ideal.exp_coe, Real.exp_log (by linarith), one_sub_real, one_sub_real, one_sub_real, pow_two_real]
  · -- label 1: bce = −log pc, pt = pc
    rw [sel_eq (1 : EReal) 1 _ _ rfl, one_mul, show (1 : EReal) - 1 = 0 by
        rw [← EReal.coe_one, ← EReal.coe_sub, sub_self, EReal.coe_zero],
      zero_mul, add_zero, neg_neg, Ideal.exp_coe, Real.exp_log hr0, one_sub_real, pow_two_real]

end Cert.Focal

end
-- ==== Proof.Sums.lean ====
/-
  Sums over an array's positions, regrouped.

  The reference adds the 16,777,216 elements in one sum over the flat array. The kernel views the array as
  131,072 rows of 128 lanes, cuts the rows into 16 blocks of 8,192, adds each block's lanes and rows, and
  adds the 16 block sums. Position `n` of the flat array is lane `n mod 128` of row `n / 128`, that is
  `(b · 8192 + r) · 128 + l` for block `b`, row `r` of the block, lane `l`. Addition on the extended reals is
  commutative and associative, so the two groupings agree.
-/
import Idealize.ShloMosaic.Lib.ValueIdx

noncomputable section

namespace Cert.Focal

open Idealize.ShloMosaic Idealize.ShloMosaic.ValueIdx

/-- `m · n` consecutive positions are `m` runs of `n`. -/
theorem sum_fin_mul {M : Type*} [AddCommMonoid M] (N m n : ℕ) (h : N = m * n) (g : ℕ → M) :
    ∑ k : Fin N, g k.val = ∑ a : Fin m, ∑ b : Fin n, g (a.val * n + b.val) := by
  subst h
  rw [← Fintype.sum_prod_type', ← Equiv.sum_comp finProdFinEquiv (fun k : Fin (m * n) => g k.val)]
  refine Fintype.sum_congr _ _ fun p => ?_
  show g (finProdFinEquiv p).val = _
  rw [finProdFinEquiv_apply_val, Nat.add_comm, Nat.mul_comm]

/-- A one-axis index is its coordinate. -/
def idxEquiv1 {n : ℕ} : (⟨1, ![n]⟩ : Shape).Idx ≃ Fin n where
  toFun j := j 0
  invFun a := ix1 a
  left_inv j := (eq_ix1 j).symm
  right_inv _ := rfl

theorem sum_idx1 {M : Type*} [AddCommMonoid M] {n : ℕ} (f : (⟨1, ![n]⟩ : Shape).Idx → M) :
    ∑ j, f j = ∑ a : Fin n, f (ix1 a) :=
  (Equiv.sum_comp idxEquiv1.symm f).symm

/-- An index of an `n × 1 × 1` array is its leading coordinate. -/
def idxEquivCol {n : ℕ} : (⟨3, ![n, 1, 1]⟩ : Shape).Idx ≃ Fin n where
  toFun j := j 0
  invFun a := ix3 a 0 0
  left_inv j := by
    funext d
    match d with
    | ⟨0, _⟩ => rfl
    | ⟨1, h1⟩ =>
      have h : (j ⟨1, h1⟩).val < 1 := (j ⟨1, h1⟩).isLt
      exact Fin.ext (by show 0 = (j ⟨1, h1⟩).val; omega)
    | ⟨2, h2⟩ =>
      have h : (j ⟨2, h2⟩).val < 1 := (j ⟨2, h2⟩).isLt
      exact Fin.ext (by show 0 = (j ⟨2, h2⟩).val; omega)
  right_inv _ := rfl

theorem sum_idxCol {M : Type*} [AddCommMonoid M] {n : ℕ} (f : (⟨3, ![n, 1, 1]⟩ : Shape).Idx → M) :
    ∑ j, f j = ∑ a : Fin n, f (ix3 a 0 0) :=
  (Equiv.sum_comp idxEquivCol.symm f).symm

/-- A function of the flat array's indices as a function of the position (`0` past the end, never read). -/
def atPos (f : (⟨1, ![16777216]⟩ : Shape).Idx → EReal) (n : ℕ) : EReal :=
  if h : n < 16777216 then f (ix1 ⟨n, h⟩) else 0

theorem atPos_of_lt (f : (⟨1, ![16777216]⟩ : Shape).Idx → EReal) (n : ℕ) (h : n < 16777216) :
    atPos f n = f (ix1 ⟨n, h⟩) := dif_pos h

/-- What one row adds up: its 128 lanes. Row `n` starts at position `n · 128`. -/
def laneSum (f : (⟨1, ![16777216]⟩ : Shape).Idx → EReal) (n : ℕ) : EReal :=
  ∑ l : Fin 128, atPos f (n * 128 + l.val)

/-- What block `b` adds up: its 8,192 rows. Block `b` starts at row `b · 8192`. -/
def blockSum (f : (⟨1, ![16777216]⟩ : Shape).Idx → EReal) (b : ℕ) : EReal :=
  ∑ r : Fin 8192, laneSum f (b * 8192 + r.val)

/-- The 16 block sums add up to the sum over the flat array. -/
theorem sum_blocks (f : (⟨1, ![16777216]⟩ : Shape).Idx → EReal) :
    ∑ b : (⟨3, ![16, 1, 1]⟩ : Shape).Idx, blockSum f (b 0).val = ∑ k : (⟨1, ![16777216]⟩ : Shape).Idx, f k := by
  rw [sum_idx1 f, sum_idxCol (fun b => blockSum f (b 0).val)]
  show ∑ a : Fin 16, blockSum f a.val = _
  unfold blockSum
  rw [← sum_fin_mul 131072 16 8192 (by norm_num) (laneSum f)]
  unfold laneSum
  rw [← sum_fin_mul 16777216 131072 128 (by norm_num) (atPos f)]
  exact Finset.sum_congr rfl fun k _ => atPos_of_lt f k.val k.isLt

end Cert.Focal

end
-- ==== Proof.Pre.lean ====
/-
  The precondition, read back: its last conjunct says that every label is exactly 0 or exactly 1.

  The predicate is a conjunction (`and`) of three `all`-reductions, and it is stated to be 1. So each conjunct is 1;
  the third reduces, by `and`, the array whose element at a position is `(label = 0) or (label = 1)`; a reduction by
  `and` that is 1 had a 1 at every position; and an `or` of two comparisons that is 1 has one of them true.
-/
import proofs.«167151_j89386859364489_2_alg».proof.Defs
import proofs.«167151_j89386859364489_2_alg».proof.Proof.Gen.Pre_finite_inputs
import Idealize.ShloMosaic.Lib.ReduceAll
import Idealize.ShloMosaic.Lib.Pipeline.Value
import Idealize.ShloMosaic.PureOps.Ideal.Laws

noncomputable section

namespace Cert.Pre_finite_inputs.Hand

open Cert.Pre_finite_inputs Idealize.ShloMosaic

variable [Cert.Pre_finite_inputs.Facts]

instance : Subsingleton S_.Idx := ⟨fun a b => funext fun d => d.elim0⟩

theorem ofBool_eq_one (b : Bool) : BitVec.ofBool b = 1#1 ↔ b = true := by cases b <;> decide

/-- An equality comparison of extended reals that came out 1 compared equal numbers. -/
theorem eq_of_cmp_oeq (x y : EReal) (h : Ideal.cmp .oeq x y = 1#1) : x = y := by
  unfold Ideal.cmp at h
  rw [ofBool_eq_one] at h
  exact of_decide_eq_true h

/-- Under the precondition every label is 0 or 1. -/
theorem binary_labels (a0 a1 : FVec Ideal S16777216 .f32)
    (h : Cert.Pre_finite_inputs.fn (F := Ideal) a0 a1 = fun _ => 1#1) (k : S16777216.Idx) :
    a1 k = 0 ∨ a1 k = 1 := by
  have h0 := congrFun h (fun a => a.elim0)
  unfold Cert.Pre_finite_inputs.fn at h0
  dsimp only at h0
  obtain ⟨-, h14⟩ := IntOp.andi_eq_one.1 h0
  have hk := Host.reduce_andi_all _ _ _ _ _ h14 k
  rcases IntOp.ori_eq_one.1 hk with e | e
  · left
    have e' := eq_of_cmp_oeq _ _ e
    rw [e', broadcastInDim_apply _ Facts.bcast_S_S16777216 _ k (fun a => a.elim0) (fun a => a.elim0)]
    exact Ideal.ofBits_zero_f32
  · right
    have e' := eq_of_cmp_oeq _ _ e
    rw [e', broadcastInDim_apply _ Facts.bcast_S_S16777216 _ k (fun a => a.elim0) (fun a => a.elim0)]
    show Ideal.ofBits .f32 0x3F800000#32 = 1
    simp [Ideal.ofBits, Ideal.ieee, -EReal.coe_mul]
    norm_num

end Cert.Pre_finite_inputs.Hand

end
-- ==== Proof.Payload.lean ====
/-
  What the kernel body stores at one grid point: the sum, over the 8192 × 128 positions of its two input
  blocks, of the kernel's element of the probability and the label at that position.

  The body computes the element at every position of the block, adds the 128 lanes of each row, then adds the
  8,192 row sums; the shape casts in between only rename indices. A sum of all row sums is the sum over all
  positions (each position lies in exactly one row), and renaming indices along a bijection keeps a sum.
-/
import proofs.«167151_j89386859364489_2_alg».proof.Proof.Gen.KernelIdeal.Skeleton
import proofs.«167151_j89386859364489_2_alg».proof.Proof.Elem
import Idealize.ShloMosaic.Lib.Pipeline.Value
import Idealize.ShloMosaic.PureOps.Ideal.Laws

noncomputable section

namespace Cert.KernelIdeal.Hand

open Cert.KernelIdeal Cert.KernelIdeal.Gen Idealize.ShloMosaic

/-- A shape cast only renames the indices: the sum over the new indices is the sum over the old. -/
theorem sum_shapeCast {s t : Shape} (x : s.Idx → EReal) (h : s.ShapeCasts t) :
    ∑ j : t.Idx, shapeCast t x h j = ∑ i : s.Idx, x i :=
  Equiv.sum_comp (Shape.reshapeEquiv h) x

/-- The sums along one axis, added over the remaining indices, give the sum over all indices. -/
theorem sum_multiReduction_add {s t : Shape} {a : Fin s.rank} (src : FVec Ideal s .f32) (acc : BitVec FTy.f32.bits)
    (h : s.Reduces [a] t) (hφ : FKind.Formats .f32) (hacc : acc = FKind.add.neutral .f32 hφ) :
    ∑ j : t.Idx, multiReduction .add [a] t src acc h hφ hacc j = ∑ i : s.Idx, src i := by
  show ∑ j : t.Idx, ∑ i ∈ Finset.univ.filter (fun i => h.drop i = j), src i = _
  exact Finset.sum_fiberwise Finset.univ h.drop src

/-- The two reductions and the casts around them: the one stored value is the sum of the whole block. -/
theorem total_of_block (v : FVec Ideal S8192x128 .f32) (j : S1x1x1.Idx) :
    shapeCast S1x1x1 (shapeCast S1x1 (multiReduction .add [0] S1
      (shapeCast S8192x1 (multiReduction .add [1] S8192 v 0x00000000#32 reduces_S8192x128_S8192 (.inl rfl) rfl) shapeCasts_S8192_S8192x1)
      0x00000000#32 reduces_S8192x1_S1 (.inl rfl) rfl) shapeCasts_S1_S1x1) shapeCasts_S1x1_S1x1x1 j
      = ∑ y : S8192x128.Idx, v y := by
  refine (Ideal.multiReduction_add_total (φ := .f32) _ 0x00000000#32 reduces_S8192x1_S1 (by decide) (.inl rfl) rfl
    (Shape.reshapeEquiv shapeCasts_S1_S1x1 (Shape.reshapeEquiv shapeCasts_S1x1_S1x1x1 j))).trans ?_
  refine (sum_shapeCast _ shapeCasts_S8192_S8192x1).trans ?_
  exact sum_multiReduction_add v 0x00000000#32 reduces_S8192x128_S8192 (.inl rfl) rfl

/-- The body's stored value, at its one index. -/
theorem pay_eq (x0 x1 : Vec Ideal S8192x128 .f32) (j : S1x1x1.Idx) :
    k0_pay1 (F := Ideal) x0 x1 j = ∑ y : S8192x128.Idx, Cert.Focal.focalK (x0 y) (x1 y) := by
  unfold k0_pay1
  simp only [shapeCast_self]
  rw [total_of_block]
  rfl

end Cert.KernelIdeal.Hand

end
-- ==== Proof.KernelValue.lean ====
/-
  What the kernel program computes: zero plus the sum, over the 16,777,216 positions of the flat arrays, of the
  kernel's element of the probability and the label at that position.

  The host first views each flat array as 131,072 rows of 128 lanes: row `R`, lane `l` is position `R · 128 + l`.
  Grid point `t` of 16 loads rows `8192 t … 8192 t + 8191` of both views, so the element at row `r`, lane `l` of its
  blocks is position `(8192 t + r) · 128 + l`; it stores the sum of its block's elements as entry `t` of a
  16 × 1 × 1 array. Every entry of that array is written by exactly one point, so after the grid the array holds the
  16 block sums; the host then adds them to zero. Regrouped, that is the sum over all positions.
-/
import proofs.«167151_j89386859364489_2_alg».proof.Proof.Gen.KernelIdeal.Frame
import proofs.«167151_j89386859364489_2_alg».proof.Proof.Payload
import proofs.«167151_j89386859364489_2_alg».proof.Proof.Sums
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The kernel's element at a position of the flat arrays. -/
def elemAt (c : Dev nD) : S16777216.Idx → EReal := fun k =>
  Cert.Focal.focalK ((m ((c : Thread nD τ).loc main_arg0) : S16777216.Idx → EReal) k)
    ((m ((c : Thread nD τ).loc main_arg1) : S16777216.Idx → EReal) k)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 16 grid points: point `t` takes row block `t` of both inputs, all 128 lanes,
    and writes entry `t` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The first input as the region finds it: the flat probabilities viewed as rows of 128. -/
theorem V_v0 (c : Dev nD) : (V m c main_v0 : S131072x128.Idx → EReal) =
    shapeCast S131072x128 (m ((c : Thread nD τ).loc main_arg0) : S16777216.Idx → EReal) shapeCasts_S16777216_S131072x128 := by
  show StableHlo.after hostOps0 (fun b => m (c, b)) (Proc.devRef .tc main_v0) = _
  after_results
  rfl

/-- The second input as the region finds it: the flat labels viewed as rows of 128. -/
theorem V_v1 (c : Dev nD) : (V m c main_v1 : S131072x128.Idx → EReal) =
    shapeCast S131072x128 (m ((c : Thread nD τ).loc main_arg1) : S16777216.Idx → EReal) shapeCasts_S16777216_S131072x128 := by
  show StableHlo.after hostOps0 (fun b => m (c, b)) (Proc.devRef .tc main_v1) = _
  after_results
  rfl

/-- Row `r`, lane `l` of point `t`'s block of probabilities is position `(8192 t + r) · 128 + l` of the flat array. -/
theorem iblk0_apply (c : Dev nD) (t : Fin cfg0.N) (y : S8192x128.Idx) (k : Fin 16777216)
    (hk : k.val = (t.val * 8192 + (y 0).val) * 128 + (y 1).val) :
    (iblk m c 0 t : Vec Ideal S8192x128 .f32) y = (m ((c : Thread nD τ).loc main_arg0) : S16777216.Idx → EReal) (ix1 k) := by
  obtain ⟨e0, e1, -⟩ := idx_facts t
  unfold iblk
  rw [View.read_apply]
  show V m c main_v0 (((cfg0.win 0).blk t).view.emb y) = _
  rw [V_v0]
  refine shapeCast_apply _ _ _ _ ?_
  show (S16777216.rowMajor (ix1 k)).val = (S131072x128.rowMajor (((cfg0.win 0).blk t).view.emb y)).val
  rw [Shape.rowMajor_val_one, Shape.rowMajor_val_two]
  show k.val = (win0_0.index t (0 : Fin 2) * 8192 + 1 * (y 0).val) * 128 + (win0_0.index t (1 : Fin 2) * 128 + 1 * (y 1).val)
  rw [e0, e1, hk]; omega

/-- The same for the labels. -/
theorem iblk1_apply (c : Dev nD) (t : Fin cfg0.N) (y : S8192x128.Idx) (k : Fin 16777216)
    (hk : k.val = (t.val * 8192 + (y 0).val) * 128 + (y 1).val) :
    (iblk m c 1 t : Vec Ideal S8192x128 .f32) y = (m ((c : Thread nD τ).loc main_arg1) : S16777216.Idx → EReal) (ix1 k) := by
  obtain ⟨-, -, e0, e1, -⟩ := idx_facts t
  unfold iblk
  rw [View.read_apply]
  show V m c main_v1 (((cfg0.win 1).blk t).view.emb y) = _
  rw [V_v1]
  refine shapeCast_apply _ _ _ _ ?_
  show (S16777216.rowMajor (ix1 k)).val = (S131072x128.rowMajor (((cfg0.win 1).blk t).view.emb y)).val
  rw [Shape.rowMajor_val_one, Shape.rowMajor_val_two]
  show k.val = (win0_1.index t (0 : Fin 2) * 8192 + 1 * (y 0).val) * 128 + (win0_1.index t (1 : Fin 2) * 128 + 1 * (y 1).val)
  rw [e0, e1, hk]; omega

/-- The output array after the grid: entry `b` is block `b`'s sum. -/
def G (c : Dev nD) : S16x1x1.Idx → EReal := fun b => Cert.Focal.blockSum (elemAt m c) (b 0).val

/-- What point `t` adds up is block `t`'s sum. -/
theorem block_eq (c : Dev nD) (t : Fin cfg0.N) :
    ∑ y : S8192x128.Idx, Cert.Focal.focalK ((iblk m c 0 t : Vec Ideal S8192x128 .f32) y) ((iblk m c 1 t : Vec Ideal S8192x128 .f32) y)
      = Cert.Focal.blockSum (elemAt m c) t.val := by
  have hN : cfg0.N = 16 := N_0
  have ht : t.val < 16 := hN ▸ t.isLt
  unfold Cert.Focal.blockSum Cert.Focal.laneSum
  rw [sum_idx2]
  refine Finset.sum_congr rfl fun r _ => Finset.sum_congr rfl fun l _ => ?_
  have hlt : (t.val * 8192 + r.val) * 128 + l.val < 16777216 := by
    have := r.isLt; have := l.isLt; omega
  rw [Cert.Focal.atPos_of_lt _ _ hlt, iblk0_apply m c t (ix2 r l) ⟨_, hlt⟩ rfl, iblk1_apply m c t (ix2 r l) ⟨_, hlt⟩ rfl]
  rfl

/-- What point `t` writes back is block `t` of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz3]
  simp only [View.ld_unit_zero (S := S8192x128) hz2]
  obtain ⟨-, -, -, -, e4, -, -⟩ := idx_facts t
  funext j
  show k0_pay1 (iblk m c 0 t) (iblk m c 1 t) j = G m c (((cfg0.win 2).blk t).view.emb j)
  refine (pay_eq (iblk m c 0 t) (iblk m c 1 t) j).trans ?_
  refine (block_eq m c t).trans ?_
  show Cert.Focal.blockSum (elemAt m c) t.val = Cert.Focal.blockSum (elemAt m c) (((cfg0.win 2).blk t).view.emb j (0 : Fin 3)).val
  refine congrArg (Cert.Focal.blockSum (elemAt m c)) ?_
  show t.val = win0_2.index t (0 : Fin 3) * 1 + 1 * (j 0).val
  have : (j 0).val < 1 := (j 0).isLt
  rw [e4]; omega

/-- Every entry of the output array lies in exactly the block of the point with its leading coordinate. -/
theorem cover (i : S16x1x1.Idx) : ∃ t : Fin cfg0.N, (cfg0.win 2).flush t = true ∧ i ∈ ((cfg0.win 2).blk t).view.set := by
  have hN : cfg0.N = 16 := N_0
  have h0 : (i 0).val < 16 := (i 0).isLt
  have h1 : (i 1).val < 1 := (i 1).isLt
  have h2 : (i 2).val < 1 := (i 2).isLt
  obtain ⟨t, ht⟩ : ∃ t : Fin cfg0.N, t.val = (i 0).val := ⟨⟨(i 0).val, by omega⟩, rfl⟩
  obtain ⟨-, -, -, -, e4, e5, e6⟩ := idx_facts t
  refine ⟨t, flush0_2 t, ?_⟩
  show i ∈ ((View.whole main_v2).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

/-- The output array after the grid is `G`. -/
theorem final (c : Dev nD) : (dats m 0 c).arrAt 2 cfg0.N = G m c :=
  (dats m 0 c).arrAt_eq_of_cover 2 (G m c) (fun t _ => flushed_eq m c t) cover

/-- The host's last line adds the 16 entries to zero. -/
theorem tail_eq (c : Dev nD) :
    @Eq (FVec Ideal S_ .f32) (Pipeline.afterTail₀ cfgs (dats m) 0 (V0 m) [hostOps1] c main_v3)
      (Host.reduceAdd (F := Ideal) (G m c : FVec Ideal S16x1x1 .f32) (constant (F := Ideal) S_ .f32 0x00000000#32) reducesTo_S16x1x1_S_d0_1_2 h_S_) := by
  unfold Pipeline.afterTail₀
  show StableHlo.after hostOps1 _ (Proc.devRef .tc main_v3) = _
  after_results
  rw [Pipeline.withArrays_arr spec0 launch0.win.arr_inj c _ _ 2, final]

/-- The program's result: zero plus the sum over all positions. -/
theorem result_eq (c : Dev nD) :
    @Eq (FVec Ideal S_ .f32) (Pipeline.afterTail₀ cfgs (dats m) 0 (V0 m) [hostOps1] c main_v3)
      (fun _ => 0 + ∑ k : S16777216.Idx, elemAt m c k) := by
  refine (tail_eq m c).trans ?_
  funext i
  simp only [Host.reduceAdd, Ideal.hostReduceAdd_def]
  refine (Ideal.hostReduceAdd_total reducesTo_S16x1x1_S_d0_1_2 (fun b => b.elim0) (G m c) _ i).trans ?_
  rw [ValueIdx.constant_apply, Ideal.ofBits_zero_f32]
  exact congrArg (fun s : EReal => 0 + s) (Cert.Focal.sum_blocks (elemAt m c))

/-- The run, read: the result at that sum, the arguments unchanged. -/
theorem run : θ_run defs (onTc (τ := τ) (main (F := Ideal))) ⟨m, fun _ => 0, ρ⟩ fun r => ∀ c : Dev nD,
      r.2.mem ((c.tc : Thread nD τ).loc main_v3) = (fun _ => 0 + ∑ k : S16777216.Idx, elemAt m c k)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefValue.lean ====
/-
  What the reference computes: zero plus the sum, over the 16,777,216 positions of the flat arrays, of the
  reference's element of the probability and the label at that position.
-/
import proofs.«167151_j89386859364489_2_alg».proof.Proof.Gen.ReferenceIdeal.Read
import proofs.«167151_j89386859364489_2_alg».proof.Proof.Elem

noncomputable section

namespace Cert.ReferenceIdeal.RefValue

open Cert.ReferenceIdeal Cert.ReferenceIdeal.Gen Cert.ReferenceIdeal.Read Idealize.ShloMosaic Idealize.ShloMosaic.TcCoe

/-- The summand at a position: every operation before the sum acts element by element, the constants broadcast. -/
theorem elem (x0 x1 : (⟨S16777216, .f32⟩ : BufTy).Contents (Elt Ideal)) (j : S16777216.Idx) :
    val_main_v21 (F := Ideal) x0 x1 j = Cert.Focal.focalR (x0 j) (x1 j) := by
  simp only [val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_v9_apply, val_main_v8_apply, val_main_v7_apply,
    val_main_v6_apply, val_main_v5_apply, val_main_v4_apply, val_main_v3_apply, val_main_v2_apply,
    val_main_v1_apply, val_main_v0_apply, val_main_call0_v4_apply, val_main_call0_v3_apply,
    val_main_call0_v2_apply, val_main_call0_v1_apply, val_main_call0_v0_apply, val_main_call1_v0_apply,
    val_main_call1_v1_apply, val_main_cst_apply, val_main_cst_0_apply, val_main_cst_1_apply,
    val_main_cst_2_apply, val_main_cst_3_apply, val_main_cst_4_apply, val_main_cst_5_apply, val_main_cst_6_apply]
  rfl

/-- The result: the initial value zero plus the sum of the elements. -/
theorem result (x0 x1 : (⟨S16777216, .f32⟩ : BufTy).Contents (Elt Ideal)) (i : S_.Idx) :
    val_main_v22 (F := Ideal) x0 x1 i = 0 + ∑ k : S16777216.Idx, Cert.Focal.focalR (x0 k) (x1 k) := by
  rw [val_main_v22_apply, val_main_cst_7_apply]
  rw [show (FloatOps.ofBits (F := Ideal) .f32 0x00000000#32 : EReal) = 0 from Ideal.ofBits_zero_f32]
  exact congrArg (fun s : EReal => 0 + s) (Finset.sum_congr rfl fun j _ => elem x0 x1 j)

end Cert.ReferenceIdeal.RefValue

end
-- ==== Proof.lean ====
/-
  The focal loss summed over 16,777,216 probabilities and labels: a kernel that adds 16 blocks of 8192 × 128 elements
  and a host sum of the 16 block sums, against one flat sum.

  Per element, with `pc` the probability clipped into `[lo, hi] ⊂ (0, 1)`, both programs compute
  `w(t) · (1 − pt)² · bce`, `bce = −(t · log pc + (1 − t) · log(1 − pc))`. The kernel takes `pt` to be `pc` where the
  label is 1 and `1 − pc` elsewhere and squares by a product; the reference takes `pt = exp(−bce)` and squares by a
  power with exponent 2. For a label that is 0 or 1 one of the two products in `bce` vanishes, `exp(−bce)` is
  `exp(log pc) = pc` or `exp(log(1 − pc)) = 1 − pc`, and the two elements are equal (Proof/Elem.lean); the precondition
  says every label is 0 or 1 (Proof/Pre.lean). The clip makes `pc` real whatever the probability is, so nothing
  else of the precondition is used.

  The kernel's result is zero plus the 16 block sums (Proof/Payload.lean, Proof/KernelValue.lean), the reference's
  zero plus the sum over the flat array (Proof/RefValue.lean); addition on the extended reals is commutative and
  associative, so the two groupings of the same 16,777,216 terms agree (Proof/Sums.lean).

  The three frames are the generated ones; the idealization rewrote nothing, so `preserves` is trivial.
-/
import proofs.«167151_j89386859364489_2_alg».proof.Defs
import proofs.«167151_j89386859364489_2_alg».proof.Proof.Gen.Kernel
import proofs.«167151_j89386859364489_2_alg».proof.Proof.Gen.Kernel.Skeleton
import proofs.«167151_j89386859364489_2_alg».proof.Proof.Gen.Kernel.Launch
import proofs.«167151_j89386859364489_2_alg».proof.Proof.Gen.Kernel.Points
import proofs.«167151_j89386859364489_2_alg».proof.Proof.Gen.Kernel.Frame
import proofs.«167151_j89386859364489_2_alg».proof.Proof.Gen.KernelIdeal
import proofs.«167151_j89386859364489_2_alg».proof.Proof.Gen.KernelIdeal.Skeleton
import proofs.«167151_j89386859364489_2_alg».proof.Proof.Gen.KernelIdeal.Launch
import proofs.«167151_j89386859364489_2_alg».proof.Proof.Gen.KernelIdeal.Points
import proofs.«167151_j89386859364489_2_alg».proof.Proof.Gen.KernelIdeal.Frame
import proofs.«167151_j89386859364489_2_alg».proof.Proof.Gen.ReferenceIdeal
import proofs.«167151_j89386859364489_2_alg».proof.Proof.Gen.ReferenceIdeal.Run
import proofs.«167151_j89386859364489_2_alg».proof.Proof.Gen.ReferenceIdeal.Read
import proofs.«167151_j89386859364489_2_alg».proof.Proof.Gen.Pre_finite_inputs
import proofs.«167151_j89386859364489_2_alg».proof.Proof.Elem
import proofs.«167151_j89386859364489_2_alg».proof.Proof.Sums
import proofs.«167151_j89386859364489_2_alg».proof.Proof.Pre
import proofs.«167151_j89386859364489_2_alg».proof.Proof.Payload
import proofs.«167151_j89386859364489_2_alg».proof.Proof.KernelValue
import proofs.«167151_j89386859364489_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at zero plus a sum over the flat positions of their element; under the precondition every label
    is 0 or 1, where the two elements agree. -/
theorem algebraic : Cert.algebraic_KernelIdeal_ReferenceIdeal := by
  intro m ρ m' ρ' hpre hagree
  refine ⟨fun c => fun _ => 0 + ∑ k : Cert.KernelIdeal.S16777216.Idx, Cert.KernelIdeal.Hand.elemAt m c k,
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq]
  funext i
  rw [Cert.ReferenceIdeal.RefValue.result, (hagree c).1, (hagree c).2]
  refine congrArg (fun s : EReal => 0 + s) (Finset.sum_congr rfl fun k _ => ?_)
  exact Cert.Focal.focalR_eq_focalK _ _ (Cert.Pre_finite_inputs.Hand.binary_labels _ _ (hpre c) k)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
